-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) (main_arg1 : IVec S512x512 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Kernel.lean ====
abbrev S512x512 : Shape := ⟨2, ![512, 512]⟩
abbrev S512 : Shape := ⟨1, ![512]⟩
abbrev S128x512 : Shape := ⟨2, ![128, 512]⟩
abbrev S128 : Shape := ⟨1, ![128]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S512x512, .i32⟩
  | .hbm, ⟨2, _⟩ => ⟨S512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S128x512, .f32⟩
  | .local _ .vmem, ⟨1, _⟩ => ⟨S128x512, .f32⟩
  | .local _ .vmem, ⟨2, _⟩ => ⟨S128x512, .i32⟩
  | .local _ .vmem, ⟨3, _⟩ => ⟨S128x512, .i32⟩
  | .local _ .vmem, ⟨4, _⟩ => ⟨S128, .f32⟩
  | .local _ .vmem, ⟨5, _⟩ => ⟨S128, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x512_S128x512_0_0 : ∀ a, (![0, 0] : Fin 2 → Nat) a + S128x512.size a ≤ S128x512.size a
  h_S128x512 : 0 < S128x512.numel
  reduces_S128x512_S128 : S128x512.Reduces [1] S128
  inb_S128_S128_0 : ∀ a, (![0] : Fin 1 → Nat) a + S128.size a ≤ S128.size a
  h_S128 : 0 < S128.numel
  reducesTo_S512_S_d0 : S512.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x512.size a ≤ S512x512.size a
  hwx0_0 : ∀ i : grid0.Coords, EltTy.bits .f32 = 32 ∨ (Rect.block (s := S512x512) S128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x512.size a
  hwx0_1 : ∀ i : grid0.Coords, EltTy.bits .i32 = 32 ∨ (Rect.block (s := S512x512) S128x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S512.size a
  hwx0_2 : ∀ i : grid0.Coords, EltTy.bits .f32 = 32 ∨ (Rect.block (s := S512) S128.size (cc0_transform_2 i) (hinb0_2 i)).WholeWords (EltTy.packing .f32)

variable [Facts₀]

abbrev win0_0 : Pipeline.Window sig grid0 :=
  Pipeline.Window.ofSpec (Memref.whole main_arg0) S128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x512 : Shape := ⟨2, ![512, 512]⟩
abbrev S_ : Shape := ⟨0, ![]⟩
abbrev S512 : Shape := ⟨1, ![512]⟩

abbrev nBuf : Space → Nat
  | .hbm => 34
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .i32⟩
  | .hbm, ⟨2, _⟩ => ⟨S512x512, .f32⟩
  | .hbm, ⟨3, _⟩ => ⟨S512x512, .f32⟩
  | .hbm, ⟨4, _⟩ => ⟨S_, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S_, .f32⟩
  | .hbm, ⟨15, _⟩ => ⟨S512, .f32⟩
  | .hbm, ⟨16, _⟩ => ⟨S_, .f32⟩
  | .hbm, ⟨17, _⟩ => ⟨S512, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S_, .f32⟩
  | .hbm, ⟨22, _⟩ => ⟨S512, .f32⟩
  | .hbm, ⟨23, _⟩ => ⟨S512x512, .f32⟩
  | .hbm, ⟨24, _⟩ => ⟨S512x512, .f32⟩
  | .hbm, ⟨25, _⟩ => ⟨S_, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S512, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  reducesTo_S512x512_S512_d1 : S512x512.ReducesTo [1] S512
  h_S_ : 0 < S_.numel
  reducesTo_S512_S_d0 : S512.ReducesTo [0] S_

variable [Facts₀]

class Facts : Prop extends Facts₀ where

variable [Facts]
-- ==== Proof.RowRatio.lean ====
/-
  The quantity both programs compute, stated once over plain index types.

  For one row with scores `c k` and labels `y k` (k < 512), write s k = 1 / (1 + e^(-c k)). The row's ratio is

      (∑ k, y k · e^(-s k)) · (∑ k, (1 - y k) · e^(s k))  /  ((∑ k, y k) · (∑ k, (1 - y k)))

  on the extended reals: sums and products are the extended reals' own, the quotient is the one every float
  division denotes there (its value at a zero or infinite divisor is part of that definition, and is the same on
  both sides because both sides divide the same two numbers). The result array holds one such ratio per row of
  the [512, 512] arguments; the label is the integer read as a real.
-/
import Idealize.ShloMosaic.PureOps.Ideal.Laws
import Idealize.ShloMosaic.Lib.ValueIdx

noncomputable section

namespace Cert.RowRatio

open Idealize.ShloMosaic Idealize.ShloMosaic.ValueIdx

/-- The f32 word of 1.0 denotes the extended real 1. -/
theorem one_f32 : Ideal.ofBits .f32 0x3F800000#32 = 1 := IdealRules.sign_bit.ideal_onePat .f32

/-- One row's ratio from the row's scores `c` and its labels `y` (already read as extended reals). -/
def ratio (c : Fin 512 → EReal) (y : Fin 512 → EReal) : EReal :=
  Ideal.div
    ((∑ k : Fin 512, y k * Ideal.exp (-(Ideal.logistic (c k)))) * (∑ k : Fin 512, (1 - y k) * Ideal.exp (Ideal.logistic (c k))))
    ((∑ k : Fin 512, y k) * (∑ k : Fin 512, (1 - y k)))

/-- Row `r` of the two [512, 512] arguments: the scores, and the integer labels read as reals. -/
def rowAt (c : (⟨2, ![512, 512]⟩ : Shape).Idx → EReal) (y : (⟨2, ![512, 512]⟩ : Shape).Idx → BitVec 32) (r : Fin 512) : EReal :=
  ratio (fun k => c (ix2 r k)) (fun k => FloatOps.sitofp (F := Ideal) .f32 (y (ix2 r k)))

/-- The [512] array of row ratios. -/
def rows (c : (⟨2, ![512, 512]⟩ : Shape).Idx → EReal) (y : (⟨2, ![512, 512]⟩ : Shape).Idx → BitVec 32) :
    (⟨1, ![512]⟩ : Shape).Idx → EReal :=
  fun i => rowAt c y (i 0)

/-- The mean both programs take of the 512 row ratios, in the spelling both share: the host's sum over the one
    axis starting from the zero word, divided by the f32 word of 512.0. It is the same term on both sides, so it is
    never opened. -/
def mean (v : (⟨1, ![512]⟩ : Shape).Idx → EReal) : (⟨0, ![]⟩ : Shape).Idx → EReal :=
  Host.divf (F := Ideal) (φ := .f32)
    (Host.reduceAdd (F := Ideal) (φ := .f32) (axes := [0]) (t := ⟨0, ![]⟩) (u := ⟨0, ![]⟩) v
      (constant (F := Ideal) ⟨0, ![]⟩ .f32 0x00000000#32) (by decide) (by decide))
    (constant (F := Ideal) ⟨0, ![]⟩ .f32 0x44000000#32)

end Cert.RowRatio

end
-- ==== Proof.KernelRow.lean ====
/-
  The kernel body's one store, read at a row of the block.

  The body loads a [128, 512] block of scores and of labels and stores, for each of the block's 128 rows, the
  quotient of two products of lane sums. A lane sum over the 512 lanes of row `p` is the finite sum over
  k < 512 of the summand at (p, k); the summands are pointwise in the loaded blocks; so the stored value at row
  `p` is the row ratio of row `p` of the two blocks. Two spellings differ from the specification's: the body
  negates by subtracting from the zero word (0 - s = -s), and its constant one is the f32 word of 1.0.
-/
import proofs.«163267_j1580547969615_1_alg».proof.Proof.Gen.KernelIdeal.Skeleton
import proofs.«163267_j1580547969615_1_alg».proof.Proof.RowRatio

noncomputable section

namespace Cert.KernelIdeal.Row

open Idealize.ShloMosaic Idealize.ShloMosaic.ValueIdx Cert.KernelIdeal Cert.KernelIdeal.Gen

/-- A lane sum of a [128, 512] vector, at row `p`: the sum over the row's 512 lanes. -/
theorem lane_sum (src : FVec Ideal S128x512 .f32) (p : Fin 128) :
    multiReduction (F := Ideal) .add [1] S128 src 0x00000000#32 reduces_S128x512_S128 (.inl rfl) rfl (ix1 p)
      = ∑ k : Fin 512, src (ix2 p k) :=
  (Ideal.multiReduction_add_single src 0x00000000#32 reduces_S128x512_S128 (.inl rfl) rfl (ix1 p)).trans
    (Finset.sum_congr rfl fun k _ => congrArg src (funext fun a => Fin.ext (by match a with | ⟨0, _⟩ => rfl | ⟨1, _⟩ => rfl)))

/-- The stored value at row `p` of the block is the row ratio of that row of the two loaded blocks. -/
theorem pay_row (x0 : Vec Ideal S128x512 .f32) (x1 : Vec Ideal S128x512 .i32) (p : Fin 128) :
    k0_pay1 (F := Ideal) x0 x1 (ix1 p)
      = Cert.RowRatio.ratio (fun k => x0 (ix2 p k)) (fun k => FloatOps.sitofp (F := Ideal) .f32 (x1 (ix2 p k))) := by
  unfold k0_pay1 Cert.RowRatio.ratio
  dsimp only
  refine congrArg₂ Ideal.div (congrArg₂ (· * ·) ?_ ?_) (congrArg₂ (· * ·) ?_ ?_)
  · refine (lane_sum _ p).trans (Finset.sum_congr rfl fun k _ => ?_)
    show _ * Ideal.exp (Ideal.ofBits .f32 0x00000000#32 - _) = _
    rw [Ideal.ofBits_zero_f32, zero_sub]
    rfl
  · refine (lane_sum _ p).trans (Finset.sum_congr rfl fun k _ => ?_)
    show (Ideal.ofBits .f32 0x3F800000#32 - _) * _ = _
    rw [Cert.RowRatio.one_f32]
    rfl
  · exact lane_sum _ p
  · refine (lane_sum _ p).trans (Finset.sum_congr rfl fun k _ => ?_)
    show Ideal.ofBits .f32 0x3F800000#32 - _ = _
    rw [Cert.RowRatio.one_f32]
    rfl

/-- The same at any index `y` of the [128] block: its one coordinate is the row. -/
theorem pay_at (x0 : Vec Ideal S128x512 .f32) (x1 : Vec Ideal S128x512 .i32) (y : S128.Idx) :
    k0_pay1 (F := Ideal) x0 x1 y
      = Cert.RowRatio.ratio (fun k => x0 (ix2 (y 0) k)) (fun k => FloatOps.sitofp (F := Ideal) .f32 (x1 (ix2 (y 0) k))) :=
  (congrArg (k0_pay1 (F := Ideal) x0 x1) (eq_ix1 y)).trans (pay_row x0 x1 (y 0))

end Cert.KernelIdeal.Row

end
-- ==== Proof.KernelArray.lean ====
/-
  From what one grid point writes back to the whole result array of the region.

  The grid has four points. At point `t` the two input windows hold rows 128·t … 128·t + 127 of their [512, 512]
  arguments (all 512 columns), and the output window's block is entries 128·t … 128·t + 127 of the [512] result.
  The body stores at block row `p` the row ratio of block row `p`, which is row 128·t + p of the arguments: so
  what point `t` writes back is block `t` of ONE array, the array of all 512 row ratios. The four blocks tile
  the result (entry `i` lies in the block of point `i / 128`), hence after the region the result array is that
  array of row ratios.
-/
import proofs.«163267_j1580547969615_1_alg».proof.Proof.Gen.KernelIdeal.Frame
import proofs.«163267_j1580547969615_1_alg».proof.Proof.KernelRow
import Idealize.ShloMosaic.Lib.Pipeline.Value

noncomputable section

namespace Cert.KernelIdeal.Rows

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: at point `t` every window is at block row `t`, the input windows at
    block column 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 1) = t.val :=
  (by decide +kernel : ∀ t : Fin grid0.N, _)

/-- The scores and the labels as the region finds them, and the array of their row ratios. -/
abbrev scores (c : Dev nD) : S512x512.Idx → EReal := V m c main_arg0
abbrev labels (c : Dev nD) : S512x512.Idx → BitVec 32 := V m c main_arg1
abbrev ratios (c : Dev nD) : S512.Idx → EReal := Cert.RowRatio.rows (scores m c) (labels m c)

/-- The score window's block at point `t`, at (p, k), is the score at row 128·t + p, column k. -/
theorem scores_block (c : Dev nD) (t : Fin cfg0.N) (p : Fin 128) (k : Fin 512) (r : Fin 512) (hr : r.val = 128 * t.val + p.val) :
    (iblk m c 0 t : Vec Ideal S128x512 .f32) (ix2 p k) = scores m c (ix2 r k) := by
  obtain ⟨e0, e1, -, -, -⟩ := block_index t
  unfold iblk
  rw [View.read_apply]
  show V m c main_arg0 _ = V m c main_arg0 _
  congr 1
  funext a
  apply Fin.ext
  match a with
  | ⟨0, _⟩ => show win0_0.index t (0 : Fin 2) * 128 + 1 * p.val = r.val; rw [e0, hr]; omega
  | ⟨1, _⟩ => show win0_0.index t (1 : Fin 2) * 512 + 1 * k.val = k.val; rw [e1]; omega

/-- The label window's block likewise. -/
theorem labels_block (c : Dev nD) (t : Fin cfg0.N) (p : Fin 128) (k : Fin 512) (r : Fin 512) (hr : r.val = 128 * t.val + p.val) :
    (iblk m c 1 t : Vec Ideal S128x512 .i32) (ix2 p k) = labels m c (ix2 r k) := by
  obtain ⟨-, -, e2, e3, -⟩ := block_index t
  unfold iblk
  rw [View.read_apply]
  show V m c main_arg1 _ = V m c main_arg1 _
  congr 1
  funext a
  apply Fin.ext
  match a with
  | ⟨0, _⟩ => show win0_1.index t (0 : Fin 2) * 128 + 1 * p.val = r.val; rw [e2, hr]; omega
  | ⟨1, _⟩ => show win0_1.index t (1 : Fin 2) * 512 + 1 * k.val = k.val; rw [e3]; omega

/-- What the body stores at point `t`, at block index `y`, is the row ratio of row 128·t + y. -/
theorem stored_at (c : Dev nD) (t : Fin cfg0.N) (y : S128.Idx) (i : S512.Idx) (hi : (i 0).val = 128 * t.val + (y 0).val) :
    k0_pay1 (F := Ideal) (iblk m c 0 t) (iblk m c 1 t) y = ratios m c i := by
  refine (Cert.KernelIdeal.Row.pay_at (iblk m c 0 t) (iblk m c 1 t) y).trans ?_
  show Cert.RowRatio.ratio _ _ = Cert.RowRatio.ratio _ _
  congr 1
  · funext k; exact scores_block m c t (y 0) k (i 0) hi
  · funext k; exact congrArg (FloatOps.sitofp (F := Ideal) .f32) (labels_block m c t (y 0) k (i 0) hi)

/-- WHAT POINT `t` WRITES BACK is block `t` of the array of row ratios. -/
theorem flushed_eq (c : Dev nD) (t : Fin cfg0.N) :
    (dats m 0 c).flushed 2 t = ((cfg0.win 2).blk t).view.read (Elt Ideal) (ratios m c) := by
  obtain ⟨-, -, -, -, e4⟩ := block_index t
  show (cfg0.win 2).cut (grid0.coords t) ((dats m 0 c).after 2 t) = _
  rw [after0_2]
  unfold out0_2
  rw [View.canon_unit_zero zero1]
  simp only [View.ld_unit_zero (S := S128x512) zero2]
  funext j
  rw [View.read_apply]
  refine stored_at m c t _ _ ?_
  show win0_2.index t (0 : Fin 1) * 128 + 1 * (j 0).val = 128 * t.val + (j 0).val
  rw [e4]; omega

/-- An entry of the result is in point `t`'s block iff its coordinate is in the block's range. -/
theorem mem_block (t : Fin cfg0.N) (i : S512.Idx) :
    i ∈ ((cfg0.win 2).blk t).view.set ↔ ∀ a : Fin 1, win0_2.index t a * S128.size a ≤ (i a).val ∧ (i a).val < win0_2.index t a * S128.size a + S128.size a := by
  show i ∈ ((View.whole main_v0).slice (win0_2.rect t)).set ↔ _
  rw [View.set_slice_whole, Rect.mem_set_unit]
  exact Iff.rfl

/-- Every entry of the result is in the block of the point its row block names. -/
theorem covered (i : S512.Idx) : ∃ t : Fin cfg0.N, (cfg0.win 2).flush t = true ∧ i ∈ ((cfg0.win 2).blk t).view.set := by
  have hN : grid0.N = 4 := N_0
  have hi : (i 0).val < 512 := (i 0).isLt
  let t : Fin cfg0.N := ⟨(i 0).val / 128, by show _ < grid0.N; omega⟩
  obtain ⟨-, -, -, -, e4⟩ := block_index t
  refine ⟨t, flush0_2 t, ?_⟩
  rw [mem_block]
  intro a
  match a with
  | ⟨0, _⟩ =>
    show win0_2.index t (0 : Fin 1) * 128 ≤ (i 0).val ∧ (i 0).val < win0_2.index t (0 : Fin 1) * 128 + 128
    rw [e4]
    show (i 0).val / 128 * 128 ≤ (i 0).val ∧ (i 0).val < (i 0).val / 128 * 128 + 128
    omega

/-- THE RESULT ARRAY after the region: the 512 row ratios of the arguments. -/
theorem result_array (c : Dev nD) : (dats m 0 c).arrAt 2 cfg0.N = ratios m c :=
  (dats m 0 c).arrAt_eq_of_cover 2 (ratios m c) (fun t _ => flushed_eq m c t) (covered)

end Cert.KernelIdeal.Rows

end
-- ==== Proof.KernelRun.lean ====
/-
  The idealized kernel's run, read: its result is the mean of the 512 row ratios of its arguments.

  After the region the result array of the region holds the row ratios; the two host lines that follow sum that
  array from zero and divide by 512.0, writing the program's result; the arguments are inputs of the region and
  end as they began.
-/
import proofs.«163267_j1580547969615_1_alg».proof.Proof.KernelArray
import Idealize.ShloMosaic.Lib.StableHlo.Run

noncomputable section

namespace Cert.KernelIdeal.Run

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-- The program's result after the host lines that follow the region: the mean of what the region left in its
    result array. -/
theorem tail_eq (c : Dev nD) :
    Pipeline.afterTail₀ cfgs (dats m) 0 (V0 m) [hostOps1] c main_v2
      = Cert.RowRatio.mean ((dats m 0 c).arrAt 2 cfg0.N) := by
  unfold Pipeline.afterTail₀
  show StableHlo.after hostOps1 _ (Proc.devRef .tc main_v2) = _
  after_results
  exact congrArg Cert.RowRatio.mean
    (Pipeline.withArrays_arr spec0 launch0.win.arr_inj c (V0 m c) (fun w => (dats m 0 c).arrAt w cfg0.N) 2)

/-- The program's result buffer is none of the region's three arrays. -/
theorem result_rest : main_v2 ∈ Pipeline.restRefs sig spec0 :=
  Pipeline.mem_restRefs_of main_v2 rfl (by decide)

/-- The row ratios of the arguments as the region finds them are those of the arguments in the initial memory:
    no host line precedes the region. -/
theorem ratios_initial (c : Dev nD) :
    Cert.KernelIdeal.Rows.ratios m c
      = Cert.RowRatio.rows (m ((c.tc : Thread nD τ).loc main_arg0)) (m ((c.tc : Thread nD τ).loc main_arg1)) := rfl

/-- Every weakly fair execution of the idealized kernel terminates with its result at the mean of the row ratios of
    its arguments, and the arguments unchanged. -/
theorem run : θ_run defs (onTc (τ := τ) (main (F := Ideal))) ⟨m, fun _ => 0, ρ⟩ fun r => ∀ c : Dev nD,
      r.2.mem ((c.tc : Thread nD τ).loc main_v2)
        = Cert.RowRatio.mean (Cert.RowRatio.rows (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v2 result_rest).trans ((tail_eq m c).trans
          ((congrArg Cert.RowRatio.mean (Cert.KernelIdeal.Rows.result_array m c)).trans
            (congrArg Cert.RowRatio.mean (ratios_initial m c)))),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Run

end
-- ==== Proof.RefRows.lean ====
/-
  The reference's [512] array before its mean is the array of row ratios.

  The reference computes s = 1 / (1 + e^(-c)) by negate, exponential, add and divide, which on the extended reals is
  the logistic function itself (the constant one is the f32 word of 1.0); its four row sums are the host's sums over
  axis 1, each the zero word plus the finite sum over the row's 512 columns; the rest is the same product of sums
  and the same quotient as in the specification.
-/
import proofs.«163267_j1580547969615_1_alg».proof.Proof.Gen.ReferenceIdeal.Read
import proofs.«163267_j1580547969615_1_alg».proof.Proof.RowRatio

noncomputable section

namespace Cert.ReferenceIdeal.Rows

open Idealize.ShloMosaic Idealize.ShloMosaic.ValueIdx Cert.ReferenceIdeal Cert.ReferenceIdeal.Gen Cert.ReferenceIdeal.Read

/-- The index the four row sums read at: row `i`, column `k`. -/
theorem idx9 (i : S512.Idx) (k : Fin 512) : idx_main_v9 i k = ix2 (n0 := 512) (n1 := 512) (i 0) k :=
  funext fun a => Fin.ext (by match a with | ⟨0, _⟩ => rfl | ⟨1, _⟩ => rfl)
theorem idx10 (i : S512.Idx) (k : Fin 512) : idx_main_v10 i k = ix2 (n0 := 512) (n1 := 512) (i 0) k :=
  funext fun a => Fin.ext (by match a with | ⟨0, _⟩ => rfl | ⟨1, _⟩ => rfl)
theorem idx14 (i : S512.Idx) (k : Fin 512) : idx_main_v14 i k = ix2 (n0 := 512) (n1 := 512) (i 0) k :=
  funext fun a => Fin.ext (by match a with | ⟨0, _⟩ => rfl | ⟨1, _⟩ => rfl)
theorem idx17 (i : S512.Idx) (k : Fin 512) : idx_main_v17 i k = ix2 (n0 := 512) (n1 := 512) (i 0) k :=
  funext fun a => Fin.ext (by match a with | ⟨0, _⟩ => rfl | ⟨1, _⟩ => rfl)

/-- The reference's expansion of the logistic function, at one element. -/
theorem sigmoid_at (x0 : (⟨S512x512, .f32⟩ : BufTy).Contents (Elt Ideal)) (j : S512x512.Idx) :
    val_main_v5 (F := Ideal) x0 j = Ideal.logistic (x0 j) := by
  show Ideal.div (Ideal.ofBits .f32 0x3F800000#32) (Ideal.ofBits .f32 0x3F800000#32 + Ideal.exp (-(x0 j))) = _
  rw [Cert.RowRatio.one_f32]
  rfl

/-- One minus the label, at one element. -/
theorem unlabel_at (x1 : (⟨S512x512, .i32⟩ : BufTy).Contents (Elt Ideal)) (j : S512x512.Idx) :
    val_main_v8 (F := Ideal) x1 j = 1 - FloatOps.sitofp (F := Ideal) .f32 (x1 j) := by
  show Ideal.ofBits .f32 0x3F800000#32 - _ = _
  rw [Cert.RowRatio.one_f32]
  rfl

/-- A label times e^(-s), at one element. -/
theorem pos_at (x0 : (⟨S512x512, .f32⟩ : BufTy).Contents (Elt Ideal)) (x1 : (⟨S512x512, .i32⟩ : BufTy).Contents (Elt Ideal)) (j : S512x512.Idx) :
    val_main_v13 (F := Ideal) x0 x1 j
      = FloatOps.sitofp (F := Ideal) .f32 (x1 j) * Ideal.exp (-(Ideal.logistic (x0 j))) := by
  show _ * Ideal.exp (-(val_main_v5 (F := Ideal) x0 j)) = _
  rw [sigmoid_at]
  rfl

/-- One minus the label, times e^s, at one element. -/
theorem neg_at (x0 : (⟨S512x512, .f32⟩ : BufTy).Contents (Elt Ideal)) (x1 : (⟨S512x512, .i32⟩ : BufTy).Contents (Elt Ideal)) (j : S512x512.Idx) :
    val_main_v16 (F := Ideal) x0 x1 j
      = (1 - FloatOps.sitofp (F := Ideal) .f32 (x1 j)) * Ideal.exp (Ideal.logistic (x0 j)) := by
  show val_main_v8 (F := Ideal) x1 j * Ideal.exp (val_main_v5 (F := Ideal) x0 j) = _
  rw [sigmoid_at, unlabel_at]

/-- The reference's quotient array is the array of row ratios of its two arguments. -/
theorem ratios_eq (x0 : (⟨S512x512, .f32⟩ : BufTy).Contents (Elt Ideal)) (x1 : (⟨S512x512, .i32⟩ : BufTy).Contents (Elt Ideal)) :
    val_main_v20 (F := Ideal) x0 x1 = Cert.RowRatio.rows x0 x1 := by
  funext i
  rw [val_main_v20_apply, val_main_v18_apply, val_main_v19_apply, val_main_v14_apply, val_main_v17_apply,
    val_main_v9_apply, val_main_v10_apply]
  unfold Cert.RowRatio.rows Cert.RowRatio.rowAt Cert.RowRatio.ratio
  refine congrArg₂ Ideal.div (congrArg₂ (· * ·) ?_ ?_) (congrArg₂ (· * ·) ?_ ?_)
  · show Ideal.ofBits .f32 0x00000000#32 + _ = _
    rw [Ideal.ofBits_zero_f32, zero_add]
    exact Finset.sum_congr rfl fun k _ => (pos_at x0 x1 _).trans
      (congrArg (fun j => FloatOps.sitofp (F := Ideal) .f32 (x1 j) * Ideal.exp (-(Ideal.logistic (x0 j)))) (idx14 i k))
  · show Ideal.ofBits .f32 0x00000000#32 + _ = _
    rw [Ideal.ofBits_zero_f32, zero_add]
    exact Finset.sum_congr rfl fun k _ => (neg_at x0 x1 _).trans
      (congrArg (fun j => (1 - FloatOps.sitofp (F := Ideal) .f32 (x1 j)) * Ideal.exp (Ideal.logistic (x0 j))) (idx17 i k))
  · show Ideal.ofBits .f32 0x00000000#32 + _ = _
    rw [Ideal.ofBits_zero_f32, zero_add]
    exact Finset.sum_congr rfl fun k _ =>
      congrArg (fun j => FloatOps.sitofp (F := Ideal) .f32 (x1 j)) (idx9 i k)
  · show Ideal.ofBits .f32 0x00000000#32 + _ = _
    rw [Ideal.ofBits_zero_f32, zero_add]
    exact Finset.sum_congr rfl fun k _ => (unlabel_at x1 _).trans
      (congrArg (fun j => 1 - FloatOps.sitofp (F := Ideal) .f32 (x1 j)) (idx10 i k))

end Cert.ReferenceIdeal.Rows

end
-- ==== Proof.lean ====
/- Both programs compute, for each of the 512 rows of the score array c and the integer label array y,

       (∑ k, y k · e^(-s k)) · (∑ k, (1 - y k) · e^(s k))  /  ((∑ k, y k) · (∑ k, (1 - y k))),   s k = 1 / (1 + e^(-c k)),

   and return the mean of the 512 ratios. The kernel computes the ratios four blocks of 128 rows at a time inside one
   pipelined region and takes the mean on the host afterwards; the reference does all of it on the host. On the
   extended reals the two agree term by term: the kernel's logistic is the reference's 1 / (1 + e^(-c)); the kernel's
   0 - s is the reference's -s; a lane sum and a host sum over a row are the same finite sum (from zero); the
   quotient and the final mean are the same operations of the same operands. No step needs the inputs to be finite.
   The three frames are the generated ones (the reference's is its generated run with the result dropped), and the
   idealization changed no operation, so nothing is owed for it. -/
import proofs.«163267_j1580547969615_1_alg».proof.Defs
import proofs.«163267_j1580547969615_1_alg».proof.Proof.Gen.Kernel
import proofs.«163267_j1580547969615_1_alg».proof.Proof.Gen.Kernel.Skeleton
import proofs.«163267_j1580547969615_1_alg».proof.Proof.Gen.Kernel.Launch
import proofs.«163267_j1580547969615_1_alg».proof.Proof.Gen.Kernel.Points
import proofs.«163267_j1580547969615_1_alg».proof.Proof.Gen.Kernel.Frame
import proofs.«163267_j1580547969615_1_alg».proof.Proof.Gen.KernelIdeal
import proofs.«163267_j1580547969615_1_alg».proof.Proof.Gen.KernelIdeal.Skeleton
import proofs.«163267_j1580547969615_1_alg».proof.Proof.Gen.KernelIdeal.Launch
import proofs.«163267_j1580547969615_1_alg».proof.Proof.Gen.KernelIdeal.Points
import proofs.«163267_j1580547969615_1_alg».proof.Proof.Gen.KernelIdeal.Frame
import proofs.«163267_j1580547969615_1_alg».proof.Proof.Gen.ReferenceIdeal
import proofs.«163267_j1580547969615_1_alg».proof.Proof.Gen.Pre_finite_inputs
import proofs.«163267_j1580547969615_1_alg».proof.Proof.Gen.ReferenceIdeal.Run
import proofs.«163267_j1580547969615_1_alg».proof.Proof.Gen.ReferenceIdeal.Read
import proofs.«163267_j1580547969615_1_alg».proof.Proof.KernelRun
import proofs.«163267_j1580547969615_1_alg».proof.Proof.RefRows
import Idealize.ShloMosaic.Adequacy
import Idealize.ShloMosaic.Init

noncomputable section

namespace Cert.Proof

open Idealize.ShloMosaic Idealize.SL.Sem Cert.Kernel

/-- The word-level kernel runs and keeps its arguments. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both idealized programs end with the mean of the row ratios of those
    arguments: the kernel by its run read through the region and the host lines after it, the reference by its run,
    whose [512] array before the mean is the same array of row ratios. -/
theorem algebraic : Cert.algebraic_KernelIdeal_ReferenceIdeal := by
  intro m ρ m' ρ' _ hagree
  refine ⟨fun c => Cert.RowRatio.mean (Cert.RowRatio.rows
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq]
  show Cert.RowRatio.mean (Cert.ReferenceIdeal.Read.val_main_v20 (F := Ideal) _ _) = _
  rw [Cert.ReferenceIdeal.Rows.ratios_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
